-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S128x128 .f32) (main_arg3 : FVec F S128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S5000x128 : Shape := ⟨2, ![5000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S5000x1 : Shape := ⟨2, ![5000, 1]⟩
abbrev S1x128 : Shape := ⟨2, ![1, 128]⟩

abbrev nBuf : Space → Nat
  | .hbm => 58
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S100000x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S1600000x1, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000, .f32⟩
  | .hbm, ⟨56, _⟩ => ⟨S100000x1, .f32⟩
  | .hbm, ⟨57, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S128, .f32⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128_S128_0 : ∀ a, (![0] : Fin 1 → Nat) a + S128.size a ≤ S128.size a
  h_S128 : 0 < S128.numel
  shapeCasts_S128_S1x128 : S128.ShapeCasts S1x128
  broadcasts_S5000x1_S5000x128 : S5000x1.Broadcasts S5000x128
  broadcasts_S1x128_S5000x128 : S1x128.Broadcasts S5000x128
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S100000x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x1, .f32⟩
  | .hbm, ⟨56, _⟩ => ⟨S1600000x128, .f32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .i1⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KRun.lean ====
/-
  The idealized kernel program's run, with its RESULT array named.

  The program is two TensorCore regions around one stretch of host operations.  Its buffer contents at the
  segment boundaries are a fold from the launch memory: the first region leaves the blockwise matrix product
  in its output array, the host operations compute the degrees, the normalisation and the scatter-added
  messages from it, and the second region leaves the combined, rectified rows in the result array.  Every weakly
  fair execution terminates, nothing faults, the result buffer ends at the last fold's contents and the five
  argument arrays end as launched.
-/
import proofs.«121844_j49916109914170_1_alg».proof.Proof.Gen.KernelIdeal.Frame

set_option maxRecDepth 16384

noncomputable section

namespace Cert.KernelIdeal.Res

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the
    contents the last segment boundary assigns it, and the argument arrays are as launched. -/
theorem run_result : θ_run defs (onTc (τ := τ) (main (F := F))) ⟨m, fun _ => 0, ρ⟩ (fun r => ∀ c : Dev nD,
      r.2.mem ((c.tc : Thread nD τ).loc main_v42) = W3 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v42 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

/-- The result buffer is the second region's output array: after the run it holds the fold of that region's
    write-backs. -/
theorem result_arr (c : Dev nD) :
    W3 m ρ c (Proc.devRef .tc main_v42) = (dat1 (V2 m ρ) c).arrAt 5 cfg1.N := W3_arr m ρ c 5

/-- The first region's output array, as the host operations and the second region find it: the fold of the
    first region's write-backs. -/
theorem xw_arr (c : Dev nD) :
    W1 m ρ c (Proc.devRef .tc main_v0) = (dat0 (V0 m ρ) c).arrAt 2 cfg0.N := W1_arr m ρ c 2

end Cert.KernelIdeal.Res

end
-- ==== Proof.Spec.lean ====
/-
  The mathematics both programs compute, stated once and over literal shapes.

  A graph-convolution layer on 100000 nodes with 128 channels: the features are first multiplied by the weight
  matrix (`dense`); the edges then scatter normalised copies of the transformed rows (the aggregate `A` below,
  which the two programs build by the same host operations); and every output entry is the aggregate plus the
  node's own transformed row scaled by its squared normalisation, plus the channel's bias, passed through a
  leaky rectifier whose negative slope is the channel's `alpha` (`combine`).
-/
import Idealize.ShloMosaic.PureOps.Ideal
import Idealize.ShloMosaic.Lib.ValueIdx

noncomputable section

namespace Cert.Gcn

open Idealize.ShloMosaic Idealize.ShloMosaic.ValueIdx

/-- Entry `(r, q)` of the dense transform: row `r` of the features against column `q` of the weights, the exact
    sum over the 128 input channels. -/
def dense (x : (⟨2, ![100000, 128]⟩ : Shape).Idx → EReal) (W : (⟨2, ![128, 128]⟩ : Shape).Idx → EReal) :
    (⟨2, ![100000, 128]⟩ : Shape).Idx → EReal :=
  fun i => ∑ k : Fin 128, x (ix2 (n0 := 100000) (n1 := 128) (i 0) k) * W (ix2 (n0 := 128) (n1 := 128) k (i 1))

variable {F : FTy → Type} [FloatOps F]

/-- One entry before the rectifier: the aggregate `a`, plus the node's own transformed entry `x` times its squared
    normalisation `d`, plus the channel's bias `bq` (added in this order). -/
def preS (a x d bq : F .f32) : F .f32 := FloatOps.addf (FloatOps.addf a (FloatOps.mulf x d)) bq

/-- The leaky rectifier with slope `al`: `s` where it is at least zero, `al · s` elsewhere. -/
def leaky (al s : F .f32) : F .f32 :=
  Scalar.select (FloatOps.cmpf .oge s (FloatOps.ofBits .f32 0x00000000#32)) s (FloatOps.mulf al s)

/-- The layer's output at `(r, q)`: the rectifier, with channel `q`'s slope, of the aggregate at `(r, q)` plus the
    node's own transformed row scaled by its squared normalisation `D2 r`, plus channel `q`'s bias. -/
def combine (A X : FVec F ⟨2, ![100000, 128]⟩ .f32) (D2 : FVec F ⟨1, ![100000]⟩ .f32) (b al : FVec F ⟨1, ![128]⟩ .f32) :
    FVec F ⟨2, ![100000, 128]⟩ .f32 :=
  fun i => leaky (al (ix1 (n := 128) (i 1))) (preS (A i) (X i) (D2 (ix1 (n := 100000) (i 0))) (b (ix1 (n := 128) (i 1))))

end Cert.Gcn

end
-- ==== Proof.Xw.lean ====
/-
  The first region: the dense transform, block by block.

  The grid has 20 points; point `t` stages rows `5000 t … 5000 t + 4999` of the features and the whole weight
  matrix, multiplies them on the matrix unit into a zero accumulator, and writes the product back as the same
  rows of the output.  The conversions to the narrower float format before the product are the identity on
  exact values.  Entry `(p, q)` of a block's product is the sum over the 128 channels of the block's row `p`
  against column `q`; the 20 blocks tile the output, so the array the region leaves is `dense` of the two
  argument arrays.
-/
import proofs.«121844_j49916109914170_1_alg».proof.Proof.KRun
import proofs.«121844_j49916109914170_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Res

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

/-! The matrix unit's operand indices at an output index and a contraction index: the row and the channel on the left,
    the channel and the column on the right. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_chan (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_chan (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block's product at `(p, q)`: the sum over the contracted axis of row `p` against column `q`. -/
theorem product_apply (x0 : Vec Ideal S5000x128 .f32) (x1 : Vec Ideal S128x128 .f32) (p : Fin 5000) (q : Fin 128) :
    k0_pay1 (F := Ideal) x0 x1 (ix2 p q)
      = ∑ k : Fin 128, x0 (ix2 (n0 := 5000) (n1 := 128) p k) * x1 (ix2 (n0 := 128) (n1 := 128) k q) := by
  unfold k0_pay1
  show FloatOps.matmul dot_S5000x128_S128x128_S5000x128_1_0_0_1_n_n none (truncf (F := Ideal) .bf16 x0 bitsLt_bf16_f32)
    (truncf (F := Ideal) .bf16 x1 bitsLt_bf16_f32) (constant S5000x128 .f32 0x00000000#32) (ix2 p q) = _
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q)
      ((ValueIdx.contrEquiv1 dot_S5000x128_S128x128_S5000x128_1_0_0_1_n_n 128 rfl rfl).symm k) = ix2 p k :=
    funext fun a => Fin.ext (by
      match a with
      | ⟨0, _⟩ => exact lhs_row _ _
      | ⟨1, _⟩ => exact (lhs_chan _ _).trans hk)
  have er : dot_S5000x128_S128x128_S5000x128_1_0_0_1_n_n.rhsIdx (ix2 p q)
      ((ValueIdx.contrEquiv1 dot_S5000x128_S128x128_S5000x128_1_0_0_1_n_n 128 rfl rfl).symm k) = ix2 k q :=
    funext fun a => Fin.ext (by
      match a with
      | ⟨0, _⟩ => exact (rhs_chan _ _).trans hk
      | ⟨1, _⟩ => exact rhs_col _ _)
  rw [el, er]
  rfl

/-- The printed block index maps over the 20 points: the feature window moves with the output's rows, the weight
    window stays, and the output's block row is the point's number. -/
theorem block_rows : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every block row of the output is some point's. -/
theorem block_rows_onto : ∀ q0 : Fin 20, ∃ t : Fin cfg0.N, win0_2.index t = ![q0.val, 0] :=
  (by decide +kernel : ∀ q0 : Fin 20, ∃ t : Fin grid0.N, win0_2.index t = ![q0.val, 0])

variable (V : (c : Dev nD) → (b : Ref sig .tc) → Buf (Elt Ideal) ((c : Thread nD τ).loc b))

/-- What point `t` writes back is block `t` of the dense transform of the two arrays the region stages. -/
theorem flushed_dense (c : Dev nD) (t : Fin cfg0.N) :
    (dat0 V c).flushed 2 t = ((cfg0.win 2).blk t).view.read (Elt Ideal) (Cert.Gcn.dense (V c main_arg0) (V c main_arg2)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x128) hz2]
  obtain ⟨e0, e1, e2, e3, e4, e5⟩ := block_rows t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = Cert.Gcn.dense (V c main_arg0) (V c main_arg2) (((cfg0.win 2).blk t).view.emb (ix2 p q))
  refine (product_apply (iblk0 V c 0 t) (iblk0 V c 1 t) p q).trans ?_
  unfold Cert.Gcn.dense
  refine Finset.sum_congr rfl fun k _ => ?_
  have h0 : ((cfg0.win 0).blk t).view.emb (ix2 (n0 := 5000) (n1 := 128) p k)
      = ix2 (n0 := 100000) (n1 := 128) ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 (n0 := 128) (n1 := 128) k q)
      = ix2 (n0 := 128) (n1 := 128) k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (fun a b : EReal => a * b) (congrArg (V c main_arg0) h0) (congrArg (V c main_arg2) h1)

/-- An index of the output array is in point `t`'s block iff each coordinate is in the block's range. -/
theorem mem_rows (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The 20 row blocks tile the output: row `r` is in the block of point `r / 5000`. -/
theorem rows_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_rows_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_rows]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The array the first region leaves is the dense transform of the arrays it staged. -/
theorem dense_arr (c : Dev nD) :
    (dat0 V c).arrAt 2 cfg0.N = Cert.Gcn.dense (V c main_arg0) (V c main_arg2) :=
  (dat0 V c).arrAt_eq_of_cover 2 (Cert.Gcn.dense (V c main_arg0) (V c main_arg2)) (fun t _ => flushed_dense V c t) rows_cover

end Cert.KernelIdeal.Res

end
-- ==== Proof.Out.lean ====
/-
  The second region: the combine, block by block.

  The grid has 20 points; point `t` stages rows `5000 t … 5000 t + 4999` of the aggregate, of the dense transform
  and of the column of squared normalisations, and the whole bias and slope vectors; it adds to each aggregate entry
  the transformed entry times its row's squared normalisation and the channel's bias, applies the leaky rectifier
  with the channel's slope, and writes the rows back.  The 20 blocks tile the result, so the array the region
  leaves is `combine` of the five arrays it staged.
-/
import proofs.«121844_j49916109914170_1_alg».proof.Proof.KRun
import proofs.«121844_j49916109914170_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Res

open Cert.KernelIdeal Cert.KernelIdeal.Gen
open Idealize.ShloMosaic Idealize.ShloMosaic.TcCoe Idealize.SL.Sem Idealize.ShloMosaic.ValueIdx
open Idealize.ShloMosaic.Pipeline (Dat)

theorem hz2' : (![0, 0] : Fin 2 → Nat) = fun _ => 0 := funext fun a => by fin_cases a <;> rfl
theorem hz1' : (![0] : Fin 1 → Nat) = fun _ => 0 := funext fun a => by fin_cases a; rfl

/-- The body's result at `(p, q)` of a block: the rectifier of the aggregate entry plus the transformed entry times the
    row's squared normalisation plus the channel's bias.  The row, column and bias broadcasts read one entry each. -/
theorem combine_block (v0 v2 : FVec Ideal S5000x128 .f32) (v4 : FVec Ideal S5000x1 .f32) (v6 v8 : FVec Ideal S128 .f32)
    (p : Fin 5000) (q : Fin 128) :
    k1_pay1 (F := Ideal) v0 v2 v4 v6 v8 (ix2 p q)
      = Cert.Gcn.leaky (F := Ideal) (v8 (ix1 q)) (Cert.Gcn.preS (F := Ideal) (v0 (ix2 p q)) (v2 (ix2 p q)) (v4 (ix2 (n0 := 5000) (n1 := 1) p 0)) (v6 (ix1 q))) := by
  have h10 : broadcastTo S5000x128 v4 broadcasts_S5000x1_S5000x128 (ix2 p q) = v4 (ix2 (n0 := 5000) (n1 := 1) p 0) :=
    broadcastTo_apply v4 broadcasts_S5000x1_S5000x128 (ix2 p q) (ix2 (n0 := 5000) (n1 := 1) p 0) (fun a => by
      match a with
      | ⟨0, _⟩ => show p.val = if (5000 : Nat) = 1 then 0 else p.val; rw [if_neg (by decide)]
      | ⟨1, _⟩ => show (0 : Nat) = if (1 : Nat) = 1 then 0 else q.val; rw [if_pos rfl])
  have h13 : broadcastTo S5000x128 (shapeCast S1x128 v6 shapeCasts_S128_S1x128) broadcasts_S1x128_S5000x128 (ix2 p q) = v6 (ix1 q) :=
    (broadcastTo_1b_ab_apply (shapeCast S1x128 v6 shapeCasts_S128_S1x128) broadcasts_S1x128_S5000x128 p q).trans
      (shapeCast_a_1a_apply v6 shapeCasts_S128_S1x128 0 q)
  have h17 : broadcastTo S5000x128 (shapeCast S1x128 v8 shapeCasts_S128_S1x128) broadcasts_S1x128_S5000x128 (ix2 p q) = v8 (ix1 q) :=
    (broadcastTo_1b_ab_apply (shapeCast S1x128 v8 shapeCasts_S128_S1x128) broadcasts_S1x128_S5000x128 p q).trans
      (shapeCast_a_1a_apply v8 shapeCasts_S128_S1x128 0 q)
  unfold k1_pay1
  simp only [shapeCast_self]
  show Cert.Gcn.leaky (F := Ideal) (broadcastTo S5000x128 (shapeCast S1x128 v8 shapeCasts_S128_S1x128) broadcasts_S1x128_S5000x128 (ix2 p q))
      (Cert.Gcn.preS (F := Ideal) (v0 (ix2 p q)) (v2 (ix2 p q)) (broadcastTo S5000x128 v4 broadcasts_S5000x1_S5000x128 (ix2 p q))
        (broadcastTo S5000x128 (shapeCast S1x128 v6 shapeCasts_S128_S1x128) broadcasts_S1x128_S5000x128 (ix2 p q))) = _
  rw [h10, h13, h17]

/-- The printed block index maps over the 20 points: the three row-blocked inputs move with the output's rows, the bias
    and slope windows stay, and the output's block row is the point's number. -/
theorem block_rows1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 1) = 0 ∧ win1_4.index t (0 : Fin 1) = 0
    ∧ win1_5.index t (1 : Fin 2) = 0 ∧ win1_5.index t (0 : Fin 2) ≤ 19 :=
  (by decide +kernel : ∀ t : Fin grid1.N, _)

/-- Every block row of the result is some point's. -/
theorem block_rows1_onto : ∀ q0 : Fin 20, ∃ t : Fin cfg1.N, win1_5.index t = ![q0.val, 0] :=
  (by decide +kernel : ∀ q0 : Fin 20, ∃ t : Fin grid1.N, win1_5.index t = ![q0.val, 0])

variable (V : (c : Dev nD) → (b : Ref sig .tc) → Buf (Elt Ideal) ((c : Thread nD τ).loc b))

/-- The column of squared normalisations, as the vector the specification takes: entry `r` is the column's `(r, 0)`. -/
def sqcol (c : Dev nD) : FVec Ideal ⟨1, ![100000]⟩ .f32 :=
  fun r => (V c main_v41 : S100000x1.Idx → EReal) (ix2 (n0 := 100000) (n1 := 1) (r 0) 0)

/-- What point `t` writes back is block `t` of the combine of the five arrays the region stages. -/
theorem flushed_combine (c : Dev nD) (t : Fin cfg1.N) :
    (dat1 V c).flushed 5 t = ((cfg1.win 5).blk t).view.read (Elt Ideal)
      (Cert.Gcn.combine (F := Ideal) (V c main_v39) (V c main_v0) (sqcol V c) (V c main_arg3) (V c main_arg4)) := by
  show (cfg1.win 5).cut (grid1.coords t) ((dat1 V c).after 5 t) = _
  rw [after1_5]
  unfold out1_5
  rw [View.canon_unit_zero hz2']
  simp only [View.ld_unit_zero (S := S5000x128) hz2', View.ld_unit_zero (S := S5000x1) hz2', View.ld_unit_zero (S := S128) hz1']
  obtain ⟨e00, e01, e10, e11, e20, e21, e3, e4, e51, e50⟩ := block_rows1 t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Cert.Gcn.combine (F := Ideal) (V c main_v39) (V c main_v0) (sqcol V c) (V c main_arg3) (V c main_arg4) (((cfg1.win 5).blk t).view.emb (ix2 p q))
  refine (combine_block (iblk1 V c 0 t) (iblk1 V c 1 t) (iblk1 V c 2 t) (iblk1 V c 3 t) (iblk1 V c 4 t) p q).trans ?_
  have h0 : ((cfg1.win 0).blk t).view.emb (ix2 (n0 := 5000) (n1 := 128) p q) = ((cfg1.win 5).blk t).view.emb (ix2 (n0 := 5000) (n1 := 128) p q) := by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * q.val = win1_5.index t (1 : Fin 2) * 128 + 1 * q.val; omega
  have h1 : ((cfg1.win 1).blk t).view.emb (ix2 (n0 := 5000) (n1 := 128) p q) = ((cfg1.win 5).blk t).view.emb (ix2 (n0 := 5000) (n1 := 128) p q) := by
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * q.val = win1_5.index t (1 : Fin 2) * 128 + 1 * q.val; omega
  have h2 : ((cfg1.win 2).blk t).view.emb (ix2 (n0 := 5000) (n1 := 1) p 0)
      = ix2 (n0 := 100000) (n1 := 1) ((((cfg1.win 5).blk t).view.emb (ix2 (n0 := 5000) (n1 := 128) p q)) 0) 0 := by
    funext a; apply Fin.ext
    match a with
    | ⟨0, _⟩ => show win1_2.index t (0 : Fin 2) * 5000 + 1 * p.val = win1_5.index t (0 : Fin 2) * 5000 + 1 * p.val; omega
    | ⟨1, _⟩ => show win1_2.index t (1 : Fin 2) * 1 + 1 * 0 = 0; omega
  have h3 : ((cfg1.win 3).blk t).view.emb (ix1 (n := 128) q)
      = ix1 (n := 128) ((((cfg1.win 5).blk t).view.emb (ix2 (n0 := 5000) (n1 := 128) p q)) 1) := by
    funext a; apply Fin.ext
    match a with
    | ⟨0, _⟩ => show win1_3.index t (0 : Fin 1) * 128 + 1 * q.val = win1_5.index t (1 : Fin 2) * 128 + 1 * q.val; omega
  have h4 : ((cfg1.win 4).blk t).view.emb (ix1 (n := 128) q)
      = ix1 (n := 128) ((((cfg1.win 5).blk t).view.emb (ix2 (n0 := 5000) (n1 := 128) p q)) 1) := by
    funext a; apply Fin.ext
    match a with
    | ⟨0, _⟩ => show win1_4.index t (0 : Fin 1) * 128 + 1 * q.val = win1_5.index t (1 : Fin 2) * 128 + 1 * q.val; omega
  show Cert.Gcn.leaky (F := Ideal) ((V c main_arg4 : S128.Idx → EReal) (((cfg1.win 4).blk t).view.emb (ix1 q)))
      (Cert.Gcn.preS (F := Ideal) ((V c main_v39 : S100000x128.Idx → EReal) (((cfg1.win 0).blk t).view.emb (ix2 p q)))
        ((V c main_v0 : S100000x128.Idx → EReal) (((cfg1.win 1).blk t).view.emb (ix2 p q)))
        ((V c main_v41 : S100000x1.Idx → EReal) (((cfg1.win 2).blk t).view.emb (ix2 (n0 := 5000) (n1 := 1) p 0)))
        ((V c main_arg3 : S128.Idx → EReal) (((cfg1.win 3).blk t).view.emb (ix1 q))))
    = _
  rw [h0, h1, h2, h3, h4]
  rfl

/-- An index of the result array is in point `t`'s block iff each coordinate is in the block's range. -/
theorem mem_rows1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v42).slice (win1_5.rect t)).set ↔ _
  rw [View.set_slice_whole, Rect.mem_set_unit]
  exact Iff.rfl

/-- The 20 row blocks tile the result: row `r` is in the block of point `r / 5000`. -/
theorem rows_cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := block_rows1_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_rows1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The array the second region leaves is the combine of the arrays it staged. -/
theorem combine_arr (c : Dev nD) :
    (dat1 V c).arrAt 5 cfg1.N
      = Cert.Gcn.combine (F := Ideal) (V c main_v39) (V c main_v0) (sqcol V c) (V c main_arg3) (V c main_arg4) :=
  (dat1 V c).arrAt_eq_of_cover 5 _ (fun t _ => flushed_combine V c t) rows_cover1

end Cert.KernelIdeal.Res

end
-- ==== Proof.Chain.lean ====
/-
  The host operations the two programs share, named once.

  Both programs split the edge list into its source row and its target row, count for every node the edges that
  point at it (a scatter-add of ones) and add one for the self loop (`degree`), gather the normalisation of each
  edge's two ends, scale the gathered transformed source row by their product and scatter-add the scaled rows at
  the targets (`aggregate`).  A negative node number is first wrapped around by the number of nodes (`wrapped`).
  The programs differ only in the normalisation: one takes the reciprocal square root of the degree directly
  (`normDirect`), the other guards it by a test that the degree is positive (`normGuarded`).
-/
import proofs.«121844_j49916109914170_1_alg».proof.Proof.Gen.ReferenceIdeal

noncomputable section

namespace Cert.Gcn

open Idealize.ShloMosaic Cert.ReferenceIdeal Cert.ReferenceIdeal.Gen

variable {F : FTy → Type} [FloatOps F]

/-- The edges' source nodes: row 0 of the edge list. -/
def sources (ei : IVec S2x1600000 32) : IVec S1600000 32 :=
  shapeCast S1600000 (extractStridedSlice S1x1600000 ![0, 0] ei slices_S2x1600000_S1x1600000_0_0) shapeCasts_S1x1600000_S1600000

/-- The edges' target nodes: row 1 of the edge list. -/
def targets (ei : IVec S2x1600000 32) : IVec S1600000 32 :=
  shapeCast S1600000 (extractStridedSlice S1x1600000 ![1, 0] ei slices_S2x1600000_S1x1600000_1_0) shapeCasts_S1x1600000_S1600000

/-- Node numbers as gather indices: a negative number has the number of nodes added. -/
def wrapped (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- Every node's degree with its self loop: one for each edge that points at it, plus one. -/
def degree (ei : IVec S2x1600000 32) : FVec F S100000 .f32 :=
  addf (Host.scatterAdd scatter_S100000_S1600000x1_S1600000_n_0_0_1
      (broadcastInDim S100000 ![] bcast_S_S100000 (constant S_ .f32 0x00000000#32))
      (broadcastInDim S1600000x1 ![0] bcast_S1600000_S1600000x1_0 (targets ei))
      (broadcastInDim S1600000 ![] bcast_S_S1600000 (constant S_ .f32 0x3F800000#32)))
    (broadcastInDim S100000 ![] bcast_S_S100000 (constant S_ .f32 0x3F800000#32))

/-- The normalisation taken directly: the reciprocal square root of the degree. -/
def normDirect (ei : IVec S2x1600000 32) : FVec F S100000 .f32 := Host.rsqrt (degree ei)

/-- The normalisation guarded: the reciprocal square root of the degree where the degree is positive, zero elsewhere. -/
def normGuarded (ei : IVec S2x1600000 32) : FVec F S100000 .f32 :=
  select (cmpf .ogt (degree (F := F) ei) (broadcastInDim S100000 ![] bcast_S_S100000 (constant S_ .f32 0x00000000#32)))
    (Host.rsqrt (degree ei)) (broadcastInDim S100000 ![] bcast_S_S100000 (constant S_ .f32 0x00000000#32))

/-- The aggregate: for every edge the transformed row of its source, scaled by the normalisations of its two ends,
    added into the row of its target. -/
def aggregate (xw : FVec F S100000x128 .f32) (dis : FVec F S100000 .f32) (ei : IVec S2x1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (targets ei))
    (mulf (Host.gather gather_S100000x128_S1600000x1_S1600000x128_1_0_n_n_0_1_1128 xw (wrapped (sources ei)))
      (broadcastInDim S1600000x128 ![0, 1] bcast_S1600000x1_S1600000x128_0_1
        (broadcastInDim S1600000x1 ![0] bcast_S1600000_S1600000x1_0
          (mulf (Host.gather gather_S100000_S1600000x1_S1600000_n_0_n_n_0_1_1 dis (wrapped (sources ei)))
            (Host.gather gather_S100000_S1600000x1_S1600000_n_0_n_n_0_1_1 dis (wrapped (targets ei)))))))

/-- The reference's last host operations as one term of whole arrays: the self-loop term and the bias added by
    broadcasts, then the leaky rectifier as a select. -/
def tail (A X : FVec F S100000x128 .f32) (dis : FVec F S100000 .f32) (b al : FVec F S128 .f32) : FVec F S100000x128 .f32 :=
  select
    (cmpf .oge
      (addf (addf A (mulf X (broadcastInDim S100000x128 ![0, 1] bcast_S100000x1_S100000x128_0_1
          (broadcastInDim S100000x1 ![0] bcast_S100000_S100000x1_0 (mulf dis dis)))))
        (broadcastInDim S100000x128 ![0, 1] bcast_S1x128_S100000x128_0_1 (broadcastInDim S1x128 ![1] bcast_S128_S1x128_1 b)))
      (broadcastInDim S100000x128 ![] bcast_S_S100000x128 (constant S_ .f32 0x00000000#32)))
    (addf (addf A (mulf X (broadcastInDim S100000x128 ![0, 1] bcast_S100000x1_S100000x128_0_1
        (broadcastInDim S100000x1 ![0] bcast_S100000_S100000x1_0 (mulf dis dis)))))
      (broadcastInDim S100000x128 ![0, 1] bcast_S1x128_S100000x128_0_1 (broadcastInDim S1x128 ![1] bcast_S128_S1x128_1 b)))
    (mulf (broadcastInDim S100000x128 ![0, 1] bcast_S1x128_S100000x128_0_1 (broadcastInDim S1x128 ![1] bcast_S128_S1x128_1 al))
      (addf (addf A (mulf X (broadcastInDim S100000x128 ![0, 1] bcast_S100000x1_S100000x128_0_1
          (broadcastInDim S100000x1 ![0] bcast_S100000_S100000x1_0 (mulf dis dis)))))
        (broadcastInDim S100000x128 ![0, 1] bcast_S1x128_S100000x128_0_1 (broadcastInDim S1x128 ![1] bcast_S128_S1x128_1 b))))

end Cert.Gcn

end
-- ==== Proof.KValue.lean ====
/-
  The idealized kernel program's result, read as the specification.

  Between the two regions the host operations find the dense transform in the first region's output array and the
  edge list in its argument buffer, and leave for the second region: the aggregate (the shared chain over the dense
  transform with the direct normalisation), the dense transform untouched, the squared normalisation reshaped to a
  column, and the bias and slope arguments untouched.  The second region's result is then the specification's
  combine of exactly the arrays the reference combines.
-/
import proofs.«121844_j49916109914170_1_alg».proof.Proof.KRun
import proofs.«121844_j49916109914170_1_alg».proof.Proof.Xw
import proofs.«121844_j49916109914170_1_alg».proof.Proof.Out
import proofs.«121844_j49916109914170_1_alg».proof.Proof.Chain
import proofs.«121844_j49916109914170_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Res

open Cert.KernelIdeal Cert.KernelIdeal.Gen
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The edge list as the host operations find it: the argument buffer, which the first region does not touch. -/
theorem edges_kept (c : Dev nD) : W1 m ρ c (Proc.devRef .tc main_arg1) = m ((c : Thread nD τ).loc main_arg1) :=
  W1_of_ne m ρ c main_arg1 (by decide)

set_option maxHeartbeats 4000000 in
/-- The aggregate the host operations leave: the shared chain over the first region's output array, the direct
    normalisation and the edge list. -/
theorem host_aggregate (c : Dev nD) :
    (V2 m ρ c main_v39 : S100000x128.Idx → EReal)
      = Cert.Gcn.aggregate (F := Ideal) (W1 m ρ c (Proc.devRef .tc main_v0))
          (Cert.Gcn.normDirect (F := Ideal) (m ((c : Thread nD τ).loc main_arg1))) (m ((c : Thread nD τ).loc main_arg1)) := by
  show StableHlo.after hostOps1 (W1 m ρ c) (Proc.devRef .tc main_v39) = _
  dsimp only [hostOps1]
  after_results_simp
  rw [edges_kept m ρ c]
  rfl

set_option maxHeartbeats 4000000 in
/-- The column of squared normalisations the host operations leave: the direct normalisation times itself, reshaped. -/
theorem host_sqcol (c : Dev nD) :
    (V2 m ρ c main_v41 : S100000x1.Idx → EReal)
      = shapeCast S100000x1 (mulf (Cert.Gcn.normDirect (F := Ideal) (m ((c : Thread nD τ).loc main_arg1)))
          (Cert.Gcn.normDirect (F := Ideal) (m ((c : Thread nD τ).loc main_arg1)))) shapeCasts_S100000_S100000x1 := by
  show StableHlo.after hostOps1 (W1 m ρ c) (Proc.devRef .tc main_v41) = _
  dsimp only [hostOps1]
  after_results_simp
  rw [edges_kept m ρ c]
  rfl

set_option maxHeartbeats 4000000 in
/-- The host operations do not write the first region's output array. -/
theorem host_keeps_dense (c : Dev nD) : V2 m ρ c main_v0 = W1 m ρ c (Proc.devRef .tc main_v0) := by
  show StableHlo.after hostOps1 (W1 m ρ c) (Proc.devRef .tc main_v0) = _
  dsimp only [hostOps1]
  after_results_simp

set_option maxHeartbeats 4000000 in
/-- The host operations and the first region do not write the bias argument. -/
theorem host_keeps_bias (c : Dev nD) : V2 m ρ c main_arg3 = m ((c : Thread nD τ).loc main_arg3) := by
  show StableHlo.after hostOps1 (W1 m ρ c) (Proc.devRef .tc main_arg3) = _
  dsimp only [hostOps1]
  after_results_simp
  exact W1_of_ne m ρ c main_arg3 (by decide)

set_option maxHeartbeats 4000000 in
/-- The host operations and the first region do not write the slope argument. -/
theorem host_keeps_slope (c : Dev nD) : V2 m ρ c main_arg4 = m ((c : Thread nD τ).loc main_arg4) := by
  show StableHlo.after hostOps1 (W1 m ρ c) (Proc.devRef .tc main_arg4) = _
  dsimp only [hostOps1]
  after_results_simp
  exact W1_of_ne m ρ c main_arg4 (by decide)

/-- The column read as a vector is the squared direct normalisation: entry `(r, 0)` of the reshaped column is entry `r`. -/
theorem sqcol_eq (c : Dev nD) :
    sqcol (V2 m ρ) c = mulf (Cert.Gcn.normDirect (F := Ideal) (m ((c : Thread nD τ).loc main_arg1)))
      (Cert.Gcn.normDirect (F := Ideal) (m ((c : Thread nD τ).loc main_arg1))) := by
  funext r
  obtain ⟨r0, rfl⟩ : ∃ r0 : Fin 100000, r = ix1 r0 := ⟨r 0, eq_ix1 r⟩
  unfold sqcol
  rw [host_sqcol m ρ c]
  exact shapeCast_apply _ shapeCasts_S100000_S100000x1 (ix2 (n0 := 100000) (n1 := 1) r0 0) (ix1 r0) (by
    rw [Shape.rowMajor_val_two, Shape.rowMajor_val_one]
    show r0.val = r0.val * 1 + 0
    omega)

/-- The first region's output array, as the host operations find it, is the dense transform of the arguments. -/
theorem dense_found (c : Dev nD) :
    (W1 m ρ c (Proc.devRef .tc main_v0) : S100000x128.Idx → EReal)
      = Cert.Gcn.dense (m ((c : Thread nD τ).loc main_arg0)) (m ((c : Thread nD τ).loc main_arg2)) :=
  (xw_arr m ρ c).trans (dense_arr (V0 m ρ) c)

/-- The program's result is the specification: combine over the aggregate of the dense transform with the direct
    normalisation. -/
theorem result_spec (c : Dev nD) :
    (W3 m ρ c (Proc.devRef .tc main_v42) : S100000x128.Idx → EReal)
      = Cert.Gcn.combine (F := Ideal)
          (Cert.Gcn.aggregate (F := Ideal) (Cert.Gcn.dense (m ((c : Thread nD τ).loc main_arg0)) (m ((c : Thread nD τ).loc main_arg2)))
            (Cert.Gcn.normDirect (F := Ideal) (m ((c : Thread nD τ).loc main_arg1))) (m ((c : Thread nD τ).loc main_arg1)))
          (Cert.Gcn.dense (m ((c : Thread nD τ).loc main_arg0)) (m ((c : Thread nD τ).loc main_arg2)))
          (mulf (Cert.Gcn.normDirect (F := Ideal) (m ((c : Thread nD τ).loc main_arg1))) (Cert.Gcn.normDirect (F := Ideal) (m ((c : Thread nD τ).loc main_arg1))))
          (m ((c : Thread nD τ).loc main_arg3)) (m ((c : Thread nD τ).loc main_arg4)) := by
  refine (result_arr m ρ c).trans ((combine_arr (V2 m ρ) c).trans ?_)
  rw [sqcol_eq m ρ c, host_aggregate m ρ c, host_keeps_dense m ρ c, host_keeps_bias m ρ c, host_keeps_slope m ρ c, dense_found m ρ c]

end Cert.KernelIdeal.Res

end
-- ==== Proof.RefValue.lean ====
/-
  The reference's result, read as the specification.

  The reference's run ends with its result at one long term of the argument arrays.  That term is the shared host
  chain (`aggregate`, with the guarded normalisation) under the reference's last operations (`tail`).  Three facts
  turn it into the specification: the host's matrix product is the dense transform entry by entry; the broadcasts of
  the last operations read one entry each, so `tail` is `combine`; and every degree is a count plus one, hence
  positive, so the guard of the normalisation always takes the reciprocal square root.
-/
import proofs.«121844_j49916109914170_1_alg».proof.Proof.RefRun
import proofs.«121844_j49916109914170_1_alg».proof.Proof.Chain
import proofs.«121844_j49916109914170_1_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Gcn

section AnyInstance
variable {F : FTy → Type} [FloatOps F]

set_option maxHeartbeats 4000000 in
/-- The run's result term is the last operations over the shared chain, with the host's matrix product and the
    guarded normalisation. -/
theorem res_eq (m : (ℓ : Loc nD τ sig) → Buf (Elt F) ℓ) (c : Dev nD) :
    Cert.ReferenceIdeal.ValueP.res_main_v56 m c
      = tail
          (aggregate
            (Host.dotGeneral dot_S100000x128_S128x128_S100000x128_1_0_0_1_n_n none (m ((c.tc : Thread nD τ).loc main_arg0)) (m ((c.tc : Thread nD τ).loc main_arg2)))
            (normGuarded (F := F) (m ((c.tc : Thread nD τ).loc main_arg1))) (m ((c.tc : Thread nD τ).loc main_arg1)))
          (Host.dotGeneral dot_S100000x128_S128x128_S100000x128_1_0_0_1_n_n none (m ((c.tc : Thread nD τ).loc main_arg0)) (m ((c.tc : Thread nD τ).loc main_arg2)))
          (normGuarded (F := F) (m ((c.tc : Thread nD τ).loc main_arg1)))
          (m ((c.tc : Thread nD τ).loc main_arg3)) (m ((c.tc : Thread nD τ).loc main_arg4)) := by
  unfold Cert.ReferenceIdeal.ValueP.res_main_v56
  rfl

/-- The last operations, entry by entry: the column and row broadcasts read one entry each, so the term is the
    specification's combine over the squared normalisation. -/
theorem tail_eq (A X : FVec F S100000x128 .f32) (dis : FVec F S100000 .f32) (b al : FVec F S128 .f32) :
    tail A X dis b al = combine A X (mulf dis dis) b al := by
  funext i
  obtain ⟨r, q, rfl⟩ : ∃ (r : Fin 100000) (q : Fin 128), i = ix2 r q := ⟨i 0, i 1, eq_ix2 i⟩
  have hd : broadcastInDim S100000x128 ![0, 1] bcast_S100000x1_S100000x128_0_1
      (broadcastInDim S100000x1 ![0] bcast_S100000_S100000x1_0 (mulf dis dis)) (ix2 r q) = mulf dis dis (ix1 r) :=
    (broadcastInDim_apply ![0, 1] bcast_S100000x1_S100000x128_0_1 _ (ix2 r q) (ix2 (n0 := 100000) (n1 := 1) r 0) (fun a => by
      match a with
      | ⟨0, _⟩ => show r.val = if (100000 : Nat) = 1 then 0 else r.val; rw [if_neg (by decide)]
      | ⟨1, _⟩ => show (0 : Nat) = if (1 : Nat) = 1 then 0 else q.val; rw [if_pos rfl])).trans
    (broadcastInDim_apply ![0] bcast_S100000_S100000x1_0 _ (ix2 (n0 := 100000) (n1 := 1) r 0) (ix1 r) (fun a => by
      match a with
      | ⟨0, _⟩ => show r.val = if (100000 : Nat) = 1 then 0 else r.val; rw [if_neg (by decide)]))
  have hb : ∀ v : FVec F S128 .f32, broadcastInDim S100000x128 ![0, 1] bcast_S1x128_S100000x128_0_1
      (broadcastInDim S1x128 ![1] bcast_S128_S1x128_1 v) (ix2 r q) = v (ix1 q) := fun v =>
    (broadcastInDim_apply ![0, 1] bcast_S1x128_S100000x128_0_1 _ (ix2 r q) (ix2 (n0 := 1) (n1 := 128) 0 q) (fun a => by
      match a with
      | ⟨0, _⟩ => show (0 : Nat) = if (1 : Nat) = 1 then 0 else r.val; rw [if_pos rfl]
      | ⟨1, _⟩ => show q.val = if (128 : Nat) = 1 then 0 else q.val; rw [if_neg (by decide)])).trans
    (broadcastInDim_apply ![1] bcast_S128_S1x128_1 _ (ix2 (n0 := 1) (n1 := 128) 0 q) (ix1 q) (fun a => by
      match a with
      | ⟨0, _⟩ => show q.val = if (128 : Nat) = 1 then 0 else q.val; rw [if_neg (by decide)]))
  show leaky
      (broadcastInDim S100000x128 ![0, 1] bcast_S1x128_S100000x128_0_1 (broadcastInDim S1x128 ![1] bcast_S128_S1x128_1 al) (ix2 r q))
      (preS (A (ix2 r q)) (X (ix2 r q))
        (broadcastInDim S100000x128 ![0, 1] bcast_S100000x1_S100000x128_0_1
          (broadcastInDim S100000x1 ![0] bcast_S100000_S100000x1_0 (mulf dis dis)) (ix2 r q))
        (broadcastInDim S100000x128 ![0, 1] bcast_S1x128_S100000x128_0_1 (broadcastInDim S1x128 ![1] bcast_S128_S1x128_1 b) (ix2 r q)))
    = _
  rw [hd, hb al, hb b]
  rfl

end AnyInstance

/-! The host product's operand indices at an output index and a contraction index. -/
theorem lhs_row (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_chan (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_chan (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_col (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's matrix product, entry by entry, is the dense transform: the sum over the one contracted axis,
    re-indexed by the channel. -/
theorem dense_ref (x : FVec Ideal S100000x128 .f32) (W : FVec Ideal S128x128 .f32) :
    Host.dotGeneral dot_S100000x128_S128x128_S100000x128_1_0_0_1_n_n none x W = Cert.Gcn.dense x W := by
  funext i
  simp only [Host.dotGeneral]
  rw [Ideal.dotGeneral_apply, ← Equiv.sum_comp (ValueIdx.contrEquiv1 dot_S100000x128_S128x128_S100000x128_1_0_0_1_n_n 128 rfl rfl).symm]
  unfold Cert.Gcn.dense
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i
      ((ValueIdx.contrEquiv1 dot_S100000x128_S128x128_S100000x128_1_0_0_1_n_n 128 rfl rfl).symm k)
        = ix2 (n0 := 100000) (n1 := 128) (i 0) k :=
    funext fun a => Fin.ext (by
      match a with
      | ⟨0, _⟩ => exact lhs_row _ _
      | ⟨1, _⟩ => exact (lhs_chan _ _).trans hk)
  have er : dot_S100000x128_S128x128_S100000x128_1_0_0_1_n_n.rhsIdx i
      ((ValueIdx.contrEquiv1 dot_S100000x128_S128x128_S100000x128_1_0_0_1_n_n 128 rfl rfl).symm k)
        = ix2 (n0 := 128) (n1 := 128) k (i 1) :=
    funext fun a => Fin.ext (by
      match a with
      | ⟨0, _⟩ => exact (rhs_chan _ _).trans hk
      | ⟨1, _⟩ => exact rhs_col _ _)
  rw [el, er]

/-- A scatter-add of entries that are not negative into entries that are not negative has no negative entry: each
    entry is its old value plus a sum of updates. -/
theorem scatterAdd_nonneg {s si su : Shape} (d : ScatterDims s si su) {w : Nat} (x : FVec Ideal s .f32) (idx : IVec si w)
    (u : FVec Ideal su .f32) (hx : ∀ i, (0 : EReal) ≤ x i) (hu : ∀ k, (0 : EReal) ≤ u k) (j : s.Idx) :
    (0 : EReal) ≤ Host.scatterAdd d x idx u j := by
  show (0 : EReal) ≤ Ideal.hostScatterAdd d x idx u j
  unfold Ideal.hostScatterAdd
  exact add_nonneg (hx j) (Finset.sum_nonneg fun k _ => hu k)

/-- Every degree is positive: it is zero plus a sum of ones (one for each edge pointing at the node) plus one. -/
theorem degree_pos (ei : IVec S2x1600000 32) (j : S100000.Idx) : (0 : EReal) < degree (F := Ideal) ei j := by
  unfold degree
  rw [ValueIdx.addf_apply, broadcastInDim_scalar_apply, ValueIdx.constant_apply, Ideal.ofBits_one_f32]
  refine lt_of_lt_of_le zero_lt_one (le_add_of_nonneg_left (scatterAdd_nonneg _ _ _ _ (fun i => ?_) (fun k => ?_) j))
  · rw [broadcastInDim_scalar_apply, ValueIdx.constant_apply, Ideal.ofBits_zero_f32]
  · rw [broadcastInDim_scalar_apply, ValueIdx.constant_apply, Ideal.ofBits_one_f32]
    exact zero_le_one

/-- So the guarded normalisation is the direct one. -/
theorem norm_eq (ei : IVec S2x1600000 32) : normGuarded (F := Ideal) ei = normDirect (F := Ideal) ei := by
  funext j
  unfold normGuarded normDirect
  rw [select_apply, cmpf_apply, broadcastInDim_scalar_apply, ValueIdx.constant_apply, Ideal.ofBits_zero_f32, Ideal.cmpf_def]
  have h : Ideal.cmp .ogt (degree (F := Ideal) ei j) 0 = 1 := by
    unfold Ideal.cmp
    simp only [degree_pos ei j, decide_true, BitVec.ofBool_true]
  rw [h]
  rfl

/-- The reference's result is the specification: combine over the aggregate of the dense transform with the direct
    normalisation. -/
theorem result_spec (m : (ℓ : Loc nD τ sig) → Buf (Elt Ideal) ℓ) (c : Dev nD) :
    Cert.ReferenceIdeal.ValueP.res_main_v56 m c
      = combine (F := Ideal)
          (aggregate (Cert.Gcn.dense (m ((c.tc : Thread nD τ).loc main_arg0)) (m ((c.tc : Thread nD τ).loc main_arg2)))
            (normDirect (F := Ideal) (m ((c.tc : Thread nD τ).loc main_arg1))) (m ((c.tc : Thread nD τ).loc main_arg1)))
          (Cert.Gcn.dense (m ((c.tc : Thread nD τ).loc main_arg0)) (m ((c.tc : Thread nD τ).loc main_arg2)))
          (mulf (normDirect (F := Ideal) (m ((c.tc : Thread nD τ).loc main_arg1))) (normDirect (F := Ideal) (m ((c.tc : Thread nD τ).loc main_arg1))))
          (m ((c.tc : Thread nD τ).loc main_arg3)) (m ((c.tc : Thread nD τ).loc main_arg4)) := by
  rw [res_eq, tail_eq, dense_ref, norm_eq]

end Cert.ReferenceIdeal.RefValue

end
-- ==== Proof.lean ====
/-
  A graph-convolution layer computed by two TensorCore kernels around host scatter and gather operations, against its
  plain reference, over the extended reals.

  Both programs compute, for 100000 nodes, 128 channels and 1600000 edges,
      out = leaky( A + (x·W) ⊙ d² + b ),   A = scatter-add over the edges of d[src] · d[dst] · (x·W)[src] at dst,
  where d is the reciprocal square root of the degree (the number of edges pointing at a node, plus one).  The
  kernel program multiplies x·W blockwise on the matrix unit (the conversions to a narrower float format are the
  identity on exact values), builds d and A by the same host operations as the reference, and combines blockwise;
  the reference multiplies once on the host, guards the reciprocal square root by a test that the degree is
  positive — which always holds, a degree being a count plus one — and combines by broadcasts.  So both results are
  one function of the arguments, entry by entry, with no use of the inputs' finiteness: no algebraic law is needed
  beyond reading sums and broadcasts at an index.

  The frames of the two kernel programs are the generated ones; the reference's frame is its run with the result
  dropped; the idealization rewrote nothing, so there is nothing to preserve.
-/
import proofs.«121844_j49916109914170_1_alg».proof.Defs
import proofs.«121844_j49916109914170_1_alg».proof.Proof.Gen.Kernel
import proofs.«121844_j49916109914170_1_alg».proof.Proof.Gen.Kernel.Skeleton
import proofs.«121844_j49916109914170_1_alg».proof.Proof.Gen.Kernel.Launch
import proofs.«121844_j49916109914170_1_alg».proof.Proof.Gen.Kernel.Points
import proofs.«121844_j49916109914170_1_alg».proof.Proof.Gen.Kernel.Frame
import proofs.«121844_j49916109914170_1_alg».proof.Proof.Gen.KernelIdeal
import proofs.«121844_j49916109914170_1_alg».proof.Proof.Gen.KernelIdeal.Skeleton
import proofs.«121844_j49916109914170_1_alg».proof.Proof.Gen.KernelIdeal.Launch
import proofs.«121844_j49916109914170_1_alg».proof.Proof.Gen.KernelIdeal.Points
import proofs.«121844_j49916109914170_1_alg».proof.Proof.Gen.KernelIdeal.Frame
import proofs.«121844_j49916109914170_1_alg».proof.Proof.Gen.ReferenceIdeal
import proofs.«121844_j49916109914170_1_alg».proof.Proof.Gen.Pre_finite_inputs
import proofs.«121844_j49916109914170_1_alg».proof.Proof.KRun
import proofs.«121844_j49916109914170_1_alg».proof.Proof.KValue
import proofs.«121844_j49916109914170_1_alg».proof.Proof.RefRun
import proofs.«121844_j49916109914170_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with the specification's layer output: the kernel
    program by its two regions and the host chain between them, the reference by its run read entry by entry. -/
theorem algebraic : Cert.algebraic_KernelIdeal_ReferenceIdeal := by
  intro m ρ m' ρ' _ hagree
  refine ⟨fun c => Cert.KernelIdeal.Gen.W3 m ρ c (Proc.devRef .tc Cert.KernelIdeal.main_v42),
    Cert.KernelIdeal.Res.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.result_spec, (hagree c).1, (hagree c).2.1, (hagree c).2.2.1, (hagree c).2.2.2.1,
    (hagree c).2.2.2.2]
  exact (Cert.KernelIdeal.Res.result_spec m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
